-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x8192 : Shape := ⟨3, ![32, 1, 8192]⟩
abbrev S_ : Shape := ⟨0, ![]⟩

class Facts : Prop where
  bcast_S_S32x1x8192 : S_.BroadcastsInDim S32x1x8192 (![] : Fin 0 → Fin S32x1x8192.rank)
  reducesTo_S32x1x8192_S_d0_1_2 : S32x1x8192.ReducesTo [0, 1, 2] S_
  h_S_ : 0 < S_.numel

variable [Facts]

def fn {F : FTy → Type} [FloatOps F] (main_arg0 : FVec F S32x1x8192 .f32) (main_arg1 : FVec F S32x1x8192 .f32) : IVec S_ 1 :=
  let main_v0 : FVec F S32x1x8192 .f32 := Host.absf main_arg0
  let main_cst : FVec F S_ .f32 := constant S_ .f32 0x7F800000#32
  let main_v1 : FVec F S32x1x8192 .f32 := broadcastInDim S32x1x8192 ![] bcast_S_S32x1x8192 main_cst
  let main_v2 : IVec S32x1x8192 1 := cmpf .olt main_v0 main_v1
  let main_c : IVec S_ 1 := constantI S_ 1 1#1
  let main_v3 : IVec S_ 1 := (fun x v => Host.reduce IntOp.andi x v reducesTo_S32x1x8192_S_d0_1_2 h_S_) main_v2 main_c
  let main_v4 : FVec F S32x1x8192 .f32 := Host.absf main_arg1
  let main_cst_0 : FVec F S_ .f32 := constant S_ .f32 0x7F800000#32
  let main_v5 : FVec F S32x1x8192 .f32 := broadcastInDim S32x1x8192 ![] bcast_S_S32x1x8192 main_cst_0
  let main_v6 : IVec S32x1x8192 1 := cmpf .olt main_v4 main_v5
  let main_c_1 : IVec S_ 1 := constantI S_ 1 1#1
  let main_v7 : IVec S_ 1 := (fun x v => Host.reduce IntOp.andi x v reducesTo_S32x1x8192_S_d0_1_2 h_S_) main_v6 main_c_1
  let main_v8 : IVec S_ 1 := andi main_v3 main_v7
  main_v8
-- ==== Kernel.lean ====
abbrev S32x1x8192 : Shape := ⟨3, ![32, 1, 8192]⟩
abbrev S32x8192 : Shape := ⟨2, ![32, 8192]⟩
abbrev S32x256 : Shape := ⟨2, ![32, 256]⟩
abbrev S16x8192 : Shape := ⟨2, ![16, 8192]⟩
abbrev S16x256 : Shape := ⟨2, ![16, 256]⟩
abbrev S16x8064 : Shape := ⟨2, ![16, 8064]⟩
abbrev S16 : Shape := ⟨1, ![16]⟩
abbrev S16x1 : Shape := ⟨2, ![16, 1]⟩
abbrev S16x129 : Shape := ⟨2, ![16, 129]⟩
abbrev S16x127 : Shape := ⟨2, ![16, 127]⟩
abbrev S32x129 : Shape := ⟨2, ![32, 129]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S32x1x8192, .f32⟩
  | .hbm, ⟨1, _⟩ => ⟨S32x1x8192, .f32⟩
  | .hbm, ⟨2, _⟩ => ⟨S32x8192, .f32⟩
  | .hbm, ⟨3, _⟩ => ⟨S32x8192, .f32⟩
  | .hbm, ⟨4, _⟩ => ⟨S32x256, .f32⟩
  | .hbm, ⟨5, _⟩ => ⟨S32x129, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x8192, .f32⟩
  | .local _ .vmem, ⟨4, _⟩ => ⟨S16x256, .f32⟩
  | .local _ .vmem, ⟨5, _⟩ => ⟨S16x256, .f32⟩
  | _, _ => ⟨S32x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1x8192_S32x8192 : S32x1x8192.ShapeCasts S32x8192
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  slices_S16x8192_o0_0_S16x8064 : S16x8192.Slices ![0, 0] S16x8064
  reduces_S16x8064_S16 : S16x8064.Reduces [1] S16
  shapeCasts_S16_S16x1 : S16.ShapeCasts S16x1
  broadcasts_S16x1_S16x8064 : S16x1.Broadcasts S16x8064
  slices_S16x8192_o0_1_S16x8064 : S16x8192.Slices ![0, 1] S16x8064
  slices_S16x8192_o0_2_S16x8064 : S16x8192.Slices ![0, 2] S16x8064
  slices_S16x8192_o0_3_S16x8064 : S16x8192.Slices ![0, 3] S16x8064
  slices_S16x8192_o0_4_S16x8064 : S16x8192.Slices ![0, 4] S16x8064
  slices_S16x8192_o0_5_S16x8064 : S16x8192.Slices ![0, 5] S16x8064
  slices_S16x8192_o0_6_S16x8064 : S16x8192.Slices ![0, 6] S16x8064
  slices_S16x8192_o0_7_S16x8064 : S16x8192.Slices ![0, 7] S16x8064
  slices_S16x8192_o0_8_S16x8064 : S16x8192.Slices ![0, 8] S16x8064
  slices_S16x8192_o0_9_S16x8064 : S16x8192.Slices ![0, 9] S16x8064
  slices_S16x8192_o0_10_S16x8064 : S16x8192.Slices ![0, 10] S16x8064
  slices_S16x8192_o0_11_S16x8064 : S16x8192.Slices ![0, 11] S16x8064
  slices_S16x8192_o0_12_S16x8064 : S16x8192.Slices ![0, 12] S16x8064
  slices_S16x8192_o0_13_S16x8064 : S16x8192.Slices ![0, 13] S16x8064
  slices_S16x8192_o0_14_S16x8064 : S16x8192.Slices ![0, 14] S16x8064
  slices_S16x8192_o0_15_S16x8064 : S16x8192.Slices ![0, 15] S16x8064
  slices_S16x8192_o0_16_S16x8064 : S16x8192.Slices ![0, 16] S16x8064
  slices_S16x8192_o0_17_S16x8064 : S16x8192.Slices ![0, 17] S16x8064
  slices_S16x8192_o0_18_S16x8064 : S16x8192.Slices ![0, 18] S16x8064
  slices_S16x8192_o0_19_S16x8064 : S16x8192.Slices ![0, 19] S16x8064
  slices_S16x8192_o0_20_S16x8064 : S16x8192.Slices ![0, 20] S16x8064
  slices_S16x8192_o0_21_S16x8064 : S16x8192.Slices ![0, 21] S16x8064
  slices_S16x8192_o0_22_S16x8064 : S16x8192.Slices ![0, 22] S16x8064
  slices_S16x8192_o0_23_S16x8064 : S16x8192.Slices ![0, 23] S16x8064
  slices_S16x8192_o0_24_S16x8064 : S16x8192.Slices ![0, 24] S16x8064
  slices_S16x8192_o0_25_S16x8064 : S16x8192.Slices ![0, 25] S16x8064
  slices_S16x8192_o0_26_S16x8064 : S16x8192.Slices ![0, 26] S16x8064
  slices_S16x8192_o0_27_S16x8064 : S16x8192.Slices ![0, 27] S16x8064
  slices_S16x8192_o0_28_S16x8064 : S16x8192.Slices ![0, 28] S16x8064
  slices_S16x8192_o0_29_S16x8064 : S16x8192.Slices ![0, 29] S16x8064
  slices_S16x8192_o0_30_S16x8064 : S16x8192.Slices ![0, 30] S16x8064
  slices_S16x8192_o0_31_S16x8064 : S16x8192.Slices ![0, 31] S16x8064
  slices_S16x8192_o0_32_S16x8064 : S16x8192.Slices ![0, 32] S16x8064
  slices_S16x8192_o0_33_S16x8064 : S16x8192.Slices ![0, 33] S16x8064
  slices_S16x8192_o0_34_S16x8064 : S16x8192.Slices ![0, 34] S16x8064
  slices_S16x8192_o0_35_S16x8064 : S16x8192.Slices ![0, 35] S16x8064
  slices_S16x8192_o0_36_S16x8064 : S16x8192.Slices ![0, 36] S16x8064
  slices_S16x8192_o0_37_S16x8064 : S16x8192.Slices ![0, 37] S16x8064
  slices_S16x8192_o0_38_S16x8064 : S16x8192.Slices ![0, 38] S16x8064
  slices_S16x8192_o0_39_S16x8064 : S16x8192.Slices ![0, 39] S16x8064
  slices_S16x8192_o0_40_S16x8064 : S16x8192.Slices ![0, 40] S16x8064
  slices_S16x8192_o0_41_S16x8064 : S16x8192.Slices ![0, 41] S16x8064
  slices_S16x8192_o0_42_S16x8064 : S16x8192.Slices ![0, 42] S16x8064
  slices_S16x8192_o0_43_S16x8064 : S16x8192.Slices ![0, 43] S16x8064
  slices_S16x8192_o0_44_S16x8064 : S16x8192.Slices ![0, 44] S16x8064
  slices_S16x8192_o0_45_S16x8064 : S16x8192.Slices ![0, 45] S16x8064
  slices_S16x8192_o0_46_S16x8064 : S16x8192.Slices ![0, 46] S16x8064
  slices_S16x8192_o0_47_S16x8064 : S16x8192.Slices ![0, 47] S16x8064
  slices_S16x8192_o0_48_S16x8064 : S16x8192.Slices ![0, 48] S16x8064
  slices_S16x8192_o0_49_S16x8064 : S16x8192.Slices ![0, 49] S16x8064
  slices_S16x8192_o0_50_S16x8064 : S16x8192.Slices ![0, 50] S16x8064
  slices_S16x8192_o0_51_S16x8064 : S16x8192.Slices ![0, 51] S16x8064
  slices_S16x8192_o0_52_S16x8064 : S16x8192.Slices ![0, 52] S16x8064
  slices_S16x8192_o0_53_S16x8064 : S16x8192.Slices ![0, 53] S16x8064
  slices_S16x8192_o0_54_S16x8064 : S16x8192.Slices ![0, 54] S16x8064
  slices_S16x8192_o0_55_S16x8064 : S16x8192.Slices ![0, 55] S16x8064
  slices_S16x8192_o0_56_S16x8064 : S16x8192.Slices ![0, 56] S16x8064
  slices_S16x8192_o0_57_S16x8064 : S16x8192.Slices ![0, 57] S16x8064
  slices_S16x8192_o0_58_S16x8064 : S16x8192.Slices ![0, 58] S16x8064
  slices_S16x8192_o0_59_S16x8064 : S16x8192.Slices ![0, 59] S16x8064
  slices_S16x8192_o0_60_S16x8064 : S16x8192.Slices ![0, 60] S16x8064
  slices_S16x8192_o0_61_S16x8064 : S16x8192.Slices ![0, 61] S16x8064
  slices_S16x8192_o0_62_S16x8064 : S16x8192.Slices ![0, 62] S16x8064
  slices_S16x8192_o0_63_S16x8064 : S16x8192.Slices ![0, 63] S16x8064
  slices_S16x8192_o0_64_S16x8064 : S16x8192.Slices ![0, 64] S16x8064
  slices_S16x8192_o0_65_S16x8064 : S16x8192.Slices ![0, 65] S16x8064
  slices_S16x8192_o0_66_S16x8064 : S16x8192.Slices ![0, 66] S16x8064
  slices_S16x8192_o0_67_S16x8064 : S16x8192.Slices ![0, 67] S16x8064
  slices_S16x8192_o0_68_S16x8064 : S16x8192.Slices ![0, 68] S16x8064
  slices_S16x8192_o0_69_S16x8064 : S16x8192.Slices ![0, 69] S16x8064
  slices_S16x8192_o0_70_S16x8064 : S16x8192.Slices ![0, 70] S16x8064
  slices_S16x8192_o0_71_S16x8064 : S16x8192.Slices ![0, 71] S16x8064
  slices_S16x8192_o0_72_S16x8064 : S16x8192.Slices ![0, 72] S16x8064
  slices_S16x8192_o0_73_S16x8064 : S16x8192.Slices ![0, 73] S16x8064
  slices_S16x8192_o0_74_S16x8064 : S16x8192.Slices ![0, 74] S16x8064
  slices_S16x8192_o0_75_S16x8064 : S16x8192.Slices ![0, 75] S16x8064
  slices_S16x8192_o0_76_S16x8064 : S16x8192.Slices ![0, 76] S16x8064
  slices_S16x8192_o0_77_S16x8064 : S16x8192.Slices ![0, 77] S16x8064
  slices_S16x8192_o0_78_S16x8064 : S16x8192.Slices ![0, 78] S16x8064
  slices_S16x8192_o0_79_S16x8064 : S16x8192.Slices ![0, 79] S16x8064
  slices_S16x8192_o0_80_S16x8064 : S16x8192.Slices ![0, 80] S16x8064
  slices_S16x8192_o0_81_S16x8064 : S16x8192.Slices ![0, 81] S16x8064
  slices_S16x8192_o0_82_S16x8064 : S16x8192.Slices ![0, 82] S16x8064
  slices_S16x8192_o0_83_S16x8064 : S16x8192.Slices ![0, 83] S16x8064
  slices_S16x8192_o0_84_S16x8064 : S16x8192.Slices ![0, 84] S16x8064
  slices_S16x8192_o0_85_S16x8064 : S16x8192.Slices ![0, 85] S16x8064
  slices_S16x8192_o0_86_S16x8064 : S16x8192.Slices ![0, 86] S16x8064
  slices_S16x8192_o0_87_S16x8064 : S16x8192.Slices ![0, 87] S16x8064
  slices_S16x8192_o0_88_S16x8064 : S16x8192.Slices ![0, 88] S16x8064
  slices_S16x8192_o0_89_S16x8064 : S16x8192.Slices ![0, 89] S16x8064
  slices_S16x8192_o0_90_S16x8064 : S16x8192.Slices ![0, 90] S16x8064
  slices_S16x8192_o0_91_S16x8064 : S16x8192.Slices ![0, 91] S16x8064
  slices_S16x8192_o0_92_S16x8064 : S16x8192.Slices ![0, 92] S16x8064
  slices_S16x8192_o0_93_S16x8064 : S16x8192.Slices ![0, 93] S16x8064
  slices_S16x8192_o0_94_S16x8064 : S16x8192.Slices ![0, 94] S16x8064
  slices_S16x8192_o0_95_S16x8064 : S16x8192.Slices ![0, 95] S16x8064
  slices_S16x8192_o0_96_S16x8064 : S16x8192.Slices ![0, 96] S16x8064
  slices_S16x8192_o0_97_S16x8064 : S16x8192.Slices ![0, 97] S16x8064
  slices_S16x8192_o0_98_S16x8064 : S16x8192.Slices ![0, 98] S16x8064
  slices_S16x8192_o0_99_S16x8064 : S16x8192.Slices ![0, 99] S16x8064
  slices_S16x8192_o0_100_S16x8064 : S16x8192.Slices ![0, 100] S16x8064
  slices_S16x8192_o0_101_S16x8064 : S16x8192.Slices ![0, 101] S16x8064
  slices_S16x8192_o0_102_S16x8064 : S16x8192.Slices ![0, 102] S16x8064
  slices_S16x8192_o0_103_S16x8064 : S16x8192.Slices ![0, 103] S16x8064
  slices_S16x8192_o0_104_S16x8064 : S16x8192.Slices ![0, 104] S16x8064
  slices_S16x8192_o0_105_S16x8064 : S16x8192.Slices ![0, 105] S16x8064
  slices_S16x8192_o0_106_S16x8064 : S16x8192.Slices ![0, 106] S16x8064
  slices_S16x8192_o0_107_S16x8064 : S16x8192.Slices ![0, 107] S16x8064
  slices_S16x8192_o0_108_S16x8064 : S16x8192.Slices ![0, 108] S16x8064
  slices_S16x8192_o0_109_S16x8064 : S16x8192.Slices ![0, 109] S16x8064
  slices_S16x8192_o0_110_S16x8064 : S16x8192.Slices ![0, 110] S16x8064
  slices_S16x8192_o0_111_S16x8064 : S16x8192.Slices ![0, 111] S16x8064
  slices_S16x8192_o0_112_S16x8064 : S16x8192.Slices ![0, 112] S16x8064
  slices_S16x8192_o0_113_S16x8064 : S16x8192.Slices ![0, 113] S16x8064
  slices_S16x8192_o0_114_S16x8064 : S16x8192.Slices ![0, 114] S16x8064
  slices_S16x8192_o0_115_S16x8064 : S16x8192.Slices ![0, 115] S16x8064
  slices_S16x8192_o0_116_S16x8064 : S16x8192.Slices ![0, 116] S16x8064
  slices_S16x8192_o0_117_S16x8064 : S16x8192.Slices ![0, 117] S16x8064
  slices_S16x8192_o0_118_S16x8064 : S16x8192.Slices ![0, 118] S16x8064
  slices_S16x8192_o0_119_S16x8064 : S16x8192.Slices ![0, 119] S16x8064
  slices_S16x8192_o0_120_S16x8064 : S16x8192.Slices ![0, 120] S16x8064
  slices_S16x8192_o0_121_S16x8064 : S16x8192.Slices ![0, 121] S16x8064
  slices_S16x8192_o0_122_S16x8064 : S16x8192.Slices ![0, 122] S16x8064
  slices_S16x8192_o0_123_S16x8064 : S16x8192.Slices ![0, 123] S16x8064
  slices_S16x8192_o0_124_S16x8064 : S16x8192.Slices ![0, 124] S16x8064
  slices_S16x8192_o0_125_S16x8064 : S16x8192.Slices ![0, 125] S16x8064
  slices_S16x8192_o0_126_S16x8064 : S16x8192.Slices ![0, 126] S16x8064
  slices_S16x8192_o0_127_S16x8064 : S16x8192.Slices ![0, 127] S16x8064
  slices_S16x8192_o0_128_S16x8064 : S16x8192.Slices ![0, 128] S16x8064
  concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x129_d1 : Shape.Concatenates (S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: []) S16x129 1
  slices_S16x129_o0_0_S16x1 : S16x129.Slices ![0, 0] S16x1
  broadcasts_S16x1_S16x129 : S16x1.Broadcasts S16x129
  concatenates_S16x129_S16x127_S16x256_d1 : Shape.Concatenates [S16x129, S16x127] S16x256 1
  inb_S16x256_S16x256_0_0 : ∀ a, (![0, 0] : Fin 2 → Nat) a + S16x256.size a ≤ S16x256.size a
  h_S16x256 : 0 < S16x256.numel
  slices_S32x256_S32x129_0_0 : S32x256.Slices ![0, 0] S32x129
  reducesTo_S32x129_S_d0_1 : S32x129.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S32x8192.size a
  hwx0_0 : ∀ i : grid0.Coords, EltTy.bits .f32 = 32 ∨ (Rect.block (s := S32x8192) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8192.size a ≤ S32x8192.size a
  hwx0_1 : ∀ i : grid0.Coords, EltTy.bits .f32 = 32 ∨ (Rect.block (s := S32x8192) S16x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S32x256.size a
  hwx0_2 : ∀ i : grid0.Coords, EltTy.bits .f32 = 32 ∨ (Rect.block (s := S32x256) S16x256.size (cc0_transform_2 i) (hinb0_2 i)).WholeWords (EltTy.packing .f32)

variable [Facts₀]

abbrev win0_0 : Pipeline.Window sig grid0 :=
  Pipeline.Window.ofSpec (Memref.whole main_v0) S16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x8192 : Shape := ⟨3, ![32, 1, 8192]⟩
abbrev S32x8192 : Shape := ⟨2, ![32, 8192]⟩
abbrev S129 : Shape := ⟨1, ![129]⟩
abbrev S129x1 : Shape := ⟨2, ![129, 1]⟩
abbrev S8064 : Shape := ⟨1, ![8064]⟩
abbrev S1x8064 : Shape := ⟨2, ![1, 8064]⟩
abbrev S129x8064 : Shape := ⟨2, ![129, 8064]⟩
abbrev S32x8064 : Shape := ⟨2, ![32, 8064]⟩
abbrev S_ : Shape := ⟨0, ![]⟩
abbrev S32 : Shape := ⟨1, ![32]⟩
abbrev S32x1 : Shape := ⟨2, ![32, 1]⟩
abbrev S129x8064x1 : Shape := ⟨3, ![129, 8064, 1]⟩
abbrev S32x129x8064 : Shape := ⟨3, ![32, 129, 8064]⟩
abbrev S32x129 : Shape := ⟨2, ![32, 129]⟩
abbrev S32x129x1 : Shape := ⟨3, ![32, 129, 1]⟩
abbrev S32x1x8064 : Shape := ⟨3, ![32, 1, 8064]⟩

abbrev nBuf : Space → Nat
  | .hbm => 98
  | .vmem => 0
  | .smem => 0
  | _ => 0

abbrev bufTy : (tb : Table) → Fin (tcTables nBuf tb) → BufTy
  | .hbm, ⟨0, _⟩ => ⟨S32x1x8192, .f32⟩
  | .hbm, ⟨1, _⟩ => ⟨S32x1x8192, .f32⟩
  | .hbm, ⟨2, _⟩ => ⟨S32x8192, .f32⟩
  | .hbm, ⟨3, _⟩ => ⟨S32x8192, .f32⟩
  | .hbm, ⟨4, _⟩ => ⟨S129, .i32⟩
  | .hbm, ⟨5, _⟩ => ⟨S129x1, .i32⟩
  | .hbm, ⟨6, _⟩ => ⟨S8064, .i32⟩
  | .hbm, ⟨7, _⟩ => ⟨S1x8064, .i32⟩
  | .hbm, ⟨8, _⟩ => ⟨S129x8064, .i32⟩
  | .hbm, ⟨9, _⟩ => ⟨S129x8064, .i32⟩
  | .hbm, ⟨10, _⟩ => ⟨S129x8064, .i32⟩
  | .hbm, ⟨11, _⟩ => ⟨S32x8064, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x8064, .f32⟩
  | .hbm, ⟨19, _⟩ => ⟨S32x8064, .f32⟩
  | .hbm, ⟨20, _⟩ => ⟨S_, .i32⟩
  | .hbm, ⟨21, _⟩ => ⟨S129x8064, .i32⟩
  | .hbm, ⟨22, _⟩ => ⟨S129x8064, .i1⟩
  | .hbm, ⟨23, _⟩ => ⟨S_, .i32⟩
  | .hbm, ⟨24, _⟩ => ⟨S129x8064, .i32⟩
  | .hbm, ⟨25, _⟩ => ⟨S129x8064, .i32⟩
  | .hbm, ⟨26, _⟩ => ⟨S129x8064, .i32⟩
  | .hbm, ⟨27, _⟩ => ⟨S129x8064x1, .i32⟩
  | .hbm, ⟨28, _⟩ => ⟨S32x129x8064, .f32⟩
  | .hbm, ⟨29, _⟩ => ⟨S_, .f32⟩
  | .hbm, ⟨30, _⟩ => ⟨S32x129, .f32⟩
  | .hbm, ⟨31, _⟩ => ⟨S32x129x1, .f32⟩
  | .hbm, ⟨32, _⟩ => ⟨S_, .f32⟩
  | .hbm, ⟨33, _⟩ => ⟨S32x129x1, .f32⟩
  | .hbm, ⟨34, _⟩ => ⟨S32x129x1, .f32⟩
  | .hbm, ⟨35, _⟩ => ⟨S32x129x8064, .f32⟩
  | .hbm, ⟨36, _⟩ => ⟨S32x129x8064, .f32⟩
  | .hbm, ⟨37, _⟩ => ⟨S32x1x8064, .f32⟩
  | .hbm, ⟨38, _⟩ => ⟨S32x129x8064, .f32⟩
  | .hbm, ⟨39, _⟩ => ⟨S32x129x8064, .f32⟩
  | .hbm, ⟨40, _⟩ => ⟨S_, .f32⟩
  | .hbm, ⟨41, _⟩ => ⟨S32x129, .f32⟩
  | .hbm, ⟨42, _⟩ => ⟨S_, .f32⟩
  | .hbm, ⟨43, _⟩ => ⟨S32x129, .f32⟩
  | .hbm, ⟨44, _⟩ => ⟨S32x129, .f32⟩
  | .hbm, ⟨45, _⟩ => ⟨S32x1, .f32⟩
  | .hbm, ⟨46, _⟩ => ⟨S32x129, .f32⟩
  | .hbm, ⟨47, _⟩ => ⟨S32x129, .f32⟩
  | .hbm, ⟨48, _⟩ => ⟨S129, .i32⟩
  | .hbm, ⟨49, _⟩ => ⟨S129x1, .i32⟩
  | .hbm, ⟨50, _⟩ => ⟨S8064, .i32⟩
  | .hbm, ⟨51, _⟩ => ⟨S1x8064, .i32⟩
  | .hbm, ⟨52, _⟩ => ⟨S129x8064, .i32⟩
  | .hbm, ⟨53, _⟩ => ⟨S129x8064, .i32⟩
  | .hbm, ⟨54, _⟩ => ⟨S129x8064, .i32⟩
  | .hbm, ⟨55, _⟩ => ⟨S32x8064, .f32⟩
  | .hbm, ⟨56, _⟩ => ⟨S_, .f32⟩
  | .hbm, ⟨57, _⟩ => ⟨S32, .f32⟩
  | .hbm, ⟨58, _⟩ => ⟨S32x1, .f32⟩
  | .hbm, ⟨59, _⟩ => ⟨S_, .f32⟩
  | .hbm, ⟨60, _⟩ => ⟨S32x1, .f32⟩
  | .hbm, ⟨61, _⟩ => ⟨S32x1, .f32⟩
  | .hbm, ⟨62, _⟩ => ⟨S32x8064, .f32⟩
  | .hbm, ⟨63, _⟩ => ⟨S32x8064, .f32⟩
  | .hbm, ⟨64, _⟩ => ⟨S_, .i32⟩
  | .hbm, ⟨65, _⟩ => ⟨S129x8064, .i32⟩
  | .hbm, ⟨66, _⟩ => ⟨S129x8064, .i1⟩
  | .hbm, ⟨67, _⟩ => ⟨S_, .i32⟩
  | .hbm, ⟨68, _⟩ => ⟨S129x8064, .i32⟩
  | .hbm, ⟨69, _⟩ => ⟨S129x8064, .i32⟩
  | .hbm, ⟨70, _⟩ => ⟨S129x8064, .i32⟩
  | .hbm, ⟨71, _⟩ => ⟨S129x8064x1, .i32⟩
  | .hbm, ⟨72, _⟩ => ⟨S32x129x8064, .f32⟩
  | .hbm, ⟨73, _⟩ => ⟨S_, .f32⟩
  | .hbm, ⟨74, _⟩ => ⟨S32x129, .f32⟩
  | .hbm, ⟨75, _⟩ => ⟨S32x129x1, .f32⟩
  | .hbm, ⟨76, _⟩ => ⟨S_, .f32⟩
  | .hbm, ⟨77, _⟩ => ⟨S32x129x1, .f32⟩
  | .hbm, ⟨78, _⟩ => ⟨S32x129x1, .f32⟩
  | .hbm, ⟨79, _⟩ => ⟨S32x129x8064, .f32⟩
  | .hbm, ⟨80, _⟩ => ⟨S32x129x8064, .f32⟩
  | .hbm, ⟨81, _⟩ => ⟨S32x1x8064, .f32⟩
  | .hbm, ⟨82, _⟩ => ⟨S32x129x8064, .f32⟩
  | .hbm, ⟨83, _⟩ => ⟨S32x129x8064, .f32⟩
  | .hbm, ⟨84, _⟩ => ⟨S_, .f32⟩
  | .hbm, ⟨85, _⟩ => ⟨S32x129, .f32⟩
  | .hbm, ⟨86, _⟩ => ⟨S_, .f32⟩
  | .hbm, ⟨87, _⟩ => ⟨S32x129, .f32⟩
  | .hbm, ⟨88, _⟩ => ⟨S32x129, .f32⟩
  | .hbm, ⟨89, _⟩ => ⟨S32x1, .f32⟩
  | .hbm, ⟨90, _⟩ => ⟨S32x129, .f32⟩
  | .hbm, ⟨91, _⟩ => ⟨S32x129, .f32⟩
  | .hbm, ⟨92, _⟩ => ⟨S32x129, .f32⟩
  | .hbm, ⟨93, _⟩ => ⟨S32x129, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S32x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_8 : Ref sig .tc := ⟨.hbm, 64, rfl⟩
abbrev main_v52 : Ref sig .tc := ⟨.hbm, 65, rfl⟩
abbrev main_v53 : Ref sig .tc := ⟨.hbm, 66, rfl⟩
abbrev main_c_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_14 : Ref sig .tc := ⟨.hbm, 94, rfl⟩
abbrev main_v76 : Ref sig .tc := ⟨.hbm, 95, rfl⟩
abbrev main_cst_15 : Ref sig .tc := ⟨.hbm, 96, rfl⟩
abbrev main_v77 : Ref sig .tc := ⟨.hbm, 97, rfl⟩

abbrev nD : Nat := 1
abbrev τ : Topo := Topo.v7x

variable {F : FTy → Type} [FloatOps F]

class Facts₀ : Prop where
  shapeCasts_S32x1x8192_S32x8192 : S32x1x8192.ShapeCasts S32x8192
  bcast_S129_S129x1_0 : S129.BroadcastsInDim S129x1 (![0] : Fin 1 → Fin S129x1.rank)
  bcast_S8064_S1x8064_1 : S8064.BroadcastsInDim S1x8064 (![1] : Fin 1 → Fin S1x8064.rank)
  bcast_S129x1_S129x8064_0_1 : S129x1.BroadcastsInDim S129x8064 (![0, 1] : Fin 2 → Fin S129x8064.rank)
  bcast_S1x8064_S129x8064_0_1 : S1x8064.BroadcastsInDim S129x8064 (![0, 1] : Fin 2 → Fin S129x8064.rank)
  slices_S32x8192_S32x8064_0_0 : S32x8192.Slices ![0, 0] S32x8064
  reducesTo_S32x8064_S32_d1 : S32x8064.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8064_0_1 : S32x1.BroadcastsInDim S32x8064 (![0, 1] : Fin 2 → Fin S32x8064.rank)
  bcast_S_S129x8064 : S_.BroadcastsInDim S129x8064 (![] : Fin 0 → Fin S129x8064.rank)
  bcast_S129x8064_S129x8064x1_0_1 : S129x8064.BroadcastsInDim S129x8064x1 (![0, 1] : Fin 2 → Fin S129x8064x1.rank)
  reducesTo_S32x129x8064_S32x129_d2 : S32x129x8064.ReducesTo [2] S32x129
  bcast_S32x129_S32x129x1_0_1 : S32x129.BroadcastsInDim S32x129x1 (![0, 1] : Fin 2 → Fin S32x129x1.rank)
  bcast_S_S32x129x1 : S_.BroadcastsInDim S32x129x1 (![] : Fin 0 → Fin S32x129x1.rank)
  bcast_S32x129x1_S32x129x8064_0_1_2 : S32x129x1.BroadcastsInDim S32x129x8064 (![0, 1, 2] : Fin 3 → Fin S32x129x8064.rank)
  bcast_S32x8064_S32x1x8064_0_2 : S32x8064.BroadcastsInDim S32x1x8064 (![0, 2] : Fin 2 → Fin S32x1x8064.rank)
  bcast_S32x1x8064_S32x129x8064_0_1_2 : S32x1x8064.BroadcastsInDim S32x129x8064 (![0, 1, 2] : Fin 3 → Fin S32x129x8064.rank)
  bcast_S_S32x129 : S_.BroadcastsInDim S32x129 (![] : Fin 0 → Fin S32x129.rank)
  slices_S32x129_S32x1_0_0 : S32x129.Slices ![0, 0] S32x1
  bcast_S32x1_S32x129_0_1 : S32x1.BroadcastsInDim S32x129 (![0, 1] : Fin 2 → Fin S32x129.rank)
  reducesTo_S32x129_S_d0_1 : S32x129.ReducesTo [0, 1] S_
  gather_S32x8192_S129x8064x1_S32x129x8064_0_1_n_n_1_2_321_wf : GatherDims.WF S32x8192 S129x8064x1 S32x129x8064 [0] [1] [] [1] [] 2 ![32, 1]

variable [Facts₀]

def gather_S32x8192_S129x8064x1_S32x129x8064_0_1_n_n_1_2_321 : GatherDims S32x8192 S129x8064x1 S32x129x8064 where
  offsetDims := [0]
  collapsedSliceDims := [1]
  operandBatchingDims := []
  startIndicesBatchingDims := []
  startIndexMap := [1]
  indexVectorDim := 2
  sliceSizes := ![32, 1]
  wf := gather_S32x8192_S129x8064x1_S32x129x8064_0_1_n_n_1_2_321_wf

class Facts : Prop extends Facts₀ where

variable [Facts]
-- ==== Proof.Autocov.lean ====
/-
  The lagged autocovariance profile of one row, on the extended reals, in the two arrangements the programs use.

  A row `u` has 8192 entries. Its window at lag `k` (0 ≤ k ≤ 128) is the 8064 entries `u (k + j)`, `j < 8064`; the
  last window ends exactly at the row's end, 128 + 8063 = 8191. The lag-0 window with its own mean taken off is
  `centred`. The kernel's cross term at lag `k` is the mean of `centred j · u (k + j)` over the window
  (`crossPlain`); the reference first takes the lag-`k` window's mean off as well (`crossCentred`). Each profile is
  then divided by its own lag-0 entry (`over0`), and the result compared between two rows by the absolute
  difference (`gap`). Every mean is a sum divided by the printed 8064.0. Nothing here assumes an entry finite;
  that the two cross terms agree when every entry is a real number is the law of AutocovLaw.lean.
-/
import Idealize.ShloMosaic.PureOps.Ideal
import Idealize.ShloMosaic.PureOps.Ideal.Laws
import Idealize.ShloMosaic.Lib.ValueIdx

noncomputable section

namespace Cert.Autocov

open Idealize.ShloMosaic

/-- The window length 8064, as both programs print it. -/
abbrev len : EReal := Ideal.ofBits .f32 0x45FC0000#32

/-- Position `k + j` of a row: lag `k ≤ 128`, window position `j < 8064`, so at most 8191. -/
def shift (k : Fin 129) (j : Fin 8064) : Fin 8192 := ⟨k.val + j.val, by have := k.isLt; have := j.isLt; omega⟩

theorem shift_val (k : Fin 129) (j : Fin 8064) : (shift k j).val = k.val + j.val := rfl

/-- The mean of the window at lag `k`. -/
def mean (u : Fin 8192 → EReal) (k : Fin 129) : EReal := Ideal.div (∑ j : Fin 8064, u (shift k j)) len

/-- The lag-0 window with its mean taken off. -/
def centred (u : Fin 8192 → EReal) (j : Fin 8064) : EReal := u (shift 0 j) - mean u 0

/-- The cross term against the lag-`k` window as it stands. -/
def crossPlain (u : Fin 8192 → EReal) (k : Fin 129) : EReal :=
  Ideal.div (∑ j : Fin 8064, centred u j * u (shift k j)) len

/-- The cross term against the lag-`k` window with its own mean taken off. -/
def crossCentred (u : Fin 8192 → EReal) (k : Fin 129) : EReal :=
  Ideal.div (∑ j : Fin 8064, centred u j * (u (shift k j) - mean u k)) len

/-- A profile divided by its lag-0 entry. -/
def over0 (c : Fin 129 → EReal) (k : Fin 129) : EReal := Ideal.div (c k) (c 0)

/-- The absolute difference, at lag `k`, of two rows' normalized profiles built from the cross term `c`. -/
def gap (c : (Fin 8192 → EReal) → Fin 129 → EReal) (u v : Fin 8192 → EReal) (k : Fin 129) : EReal :=
  max (over0 (c u) k - over0 (c v) k) (-(over0 (c u) k - over0 (c v) k))

/-- Row `r` of a [32, 8192] array. -/
def rowOf (X : (⟨2, ![32, 8192]⟩ : Shape).Idx → EReal) (r : Fin 32) : Fin 8192 → EReal :=
  fun i => X (ValueIdx.ix2 r i)

/-- The [32, 129] array of gaps between the rows of two [32, 8192] arrays, for the cross term `c`. -/
def gaps (c : (Fin 8192 → EReal) → Fin 129 → EReal) (X Y : (⟨2, ![32, 8192]⟩ : Shape).Idx → EReal) :
    (⟨2, ![32, 129]⟩ : Shape).Idx → EReal :=
  fun i => gap c (rowOf X (i 0)) (rowOf Y (i 0)) (i 1)

end Cert.Autocov

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.Lags.lean ====
/-
  The kernel's body, one block of 16 rows at a time, as one uniform function of the lag.

  The body is printed lag by lag: 129 times for each of the two operands it slices the window at lag `k` out of the
  [16, 8192] block, multiplies it by the centred lag-0 window, sums along the lanes, keeps the sum as a [16, 1] column
  and divides by the printed 8064.0; the 129 columns are then laid side by side into a [16, 129] profile, the profile
  divided by its own first column, the two operands' profiles subtracted, the absolute value taken and the result
  padded with 127 zero lanes to [16, 256]. Here the 129 printed columns are restated as ONE function `col k` of the
  lag, the profile as the concatenation of `List.ofFn col`, and the block's payload as that arrangement; the
  printed text unfolds to it. Then every piece is read at an index.
-/
import proofs.«159838_j9131100471358_2_alg».proof.Proof.Gen.KernelIdeal.Frame
import proofs.«159838_j9131100471358_2_alg».proof.Proof.Autocov
import proofs.«159838_j9131100471358_2_alg».proof.Proof.LibLaneReduce
import proofs.«159838_j9131100471358_2_alg».proof.Proof.LibColumnLayout
import Idealize.ShloMosaic.Lib.ValueLayout
import Idealize.ShloMosaic.Lib.Pipeline.Value

noncomputable section

namespace Cert.KernelIdeal.Lags

open Cert.KernelIdeal Cert.KernelIdeal.Gen Idealize.ShloMosaic Idealize.ShloMosaic.ValueIdx

variable {F : FTy → Type} [FloatOps F]

/-- The window at lag `k ≤ 128` fits in a row of 8192: `k + 8064 ≤ 8192`. -/
theorem slices_lag (k : Fin 129) : S16x8192.Slices ![0, k.val] S16x8064 :=
  ⟨rfl, fun a => by
    have hk := k.isLt
    match a with
    | ⟨0, _⟩ => exact Nat.le_refl 16
    | ⟨1, _⟩ => show k.val + 8064 ≤ 8192; omega⟩

/-- The lag-0 window of a block with each row's mean taken off. -/
def cen (v : FVec F S16x8192 .f32) : FVec F S16x8064 .f32 :=
  subf (extractStridedSlice S16x8064 ![0, 0] v slices_S16x8192_o0_0_S16x8064)
    (broadcastTo S16x8064
      (divf (shapeCast S16x1 (multiReduction .add [1] S16 (extractStridedSlice S16x8064 ![0, 0] v slices_S16x8192_o0_0_S16x8064)
          0x00000000#32 reduces_S16x8064_S16 (.inl rfl) rfl) shapeCasts_S16_S16x1)
        (broadcast S16x1 (Scalar.ofBits .f32 0x45FC0000#32)))
      broadcasts_S16x1_S16x8064)

/-- The column of lag `k`: per row, the sum over the window of `w` times the block's window at lag `k`, over 8064.0. -/
def col (k : Fin 129) (v : FVec F S16x8192 .f32) (w : FVec F S16x8064 .f32) : FVec F S16x1 .f32 :=
  divf (shapeCast S16x1 (multiReduction .add [1] S16 (mulf w (extractStridedSlice S16x8064 ![0, k.val] v (slices_lag k)))
      0x00000000#32 reduces_S16x8064_S16 (.inl rfl) rfl) shapeCasts_S16_S16x1)
    (broadcast S16x1 (Scalar.ofBits .f32 0x45FC0000#32))

/-- 129 unit-width columns fill 129 lanes. -/
theorem cat129 {α : Type} (f : Fin 129 → (S16x1.Idx → α)) :
    Shape.Concatenates ((List.ofFn fun k : Fin 129 => (⟨S16x1, f k⟩ : (s : Shape) × (s.Idx → α))).map (·.1)) S16x129 1 := by
  rw [List.map_ofFn]
  show Shape.Concatenates (List.ofFn fun _ : Fin 129 => S16x1) S16x129 1
  decide

/-- The 129 columns side by side. -/
def cols (v : FVec F S16x8192 .f32) : FVec F S16x129 .f32 :=
  concatenate S16x129 1 (List.ofFn fun k : Fin 129 => (⟨S16x1, col k v (cen v)⟩ : (s : Shape) × (s.Idx → F .f32))) (cat129 _)

/-- The profile: the columns over the lag-0 column. -/
def prof (v : FVec F S16x8192 .f32) : FVec F S16x129 .f32 :=
  divf (cols v) (broadcastTo S16x129 (extractStridedSlice S16x1 ![0, 0] (cols v) slices_S16x129_o0_0_S16x1) broadcasts_S16x1_S16x129)

/-- The printed centred window is `cen`, for either operand. -/
theorem pay4_eq (v0 : Vec F S16x8192 .f32) : k0_pay4 v0 = cen (k0_pay2 v0) := rfl
theorem pay148_eq (v3 : FVec F S16x8192 .f32) : k0_pay148 v3 = cen v3 := rfl

set_option maxRecDepth 65536 in
set_option maxHeartbeats 4000000 in
/-- What the body leaves in the output block: the absolute difference of the two operands' profiles, padded. The
    printed payload unfolds to this arrangement: each printed column is `col` at its lag. -/
theorem out_eq (x0 x1 : Vec F S16x8192 .f32) :
    out0_2 x0 x1 = View.canon [(⟨r0_1, k0_pay1 (subf (prof (k0_pay2 (View.ld x0 r0_0))) (prof (k0_pay3 (View.ld x1 r0_0))))⟩ :
      View.Piece (Elt F) S16x256 .f32)] := by
  unfold out0_2
  refine congrArg (fun p => View.canon [(⟨r0_1, p⟩ : View.Piece (Elt F) S16x256 .f32)]) ?_
  refine congrArg k0_pay1 ?_
  rfl

end Cert.KernelIdeal.Lags

end
-- ==== Proof.LagsRead.lean ====
/-
  The block's payload read at an index, at the extended reals.

  Row `p` of a [16, 8192] block is a row of 8192 entries (`brow`). The printed window at lag `k` reads it at
  `shift k j`; a lane sum kept as a column and divided by the printed 8064.0 is the row's sum over 8064.0; so the
  centred window is `Autocov.centred` of the row, column `k` is `Autocov.crossPlain` of the row at lag `k`, the
  profile is `over0` of that, and the padded absolute difference of two blocks' profiles is `Autocov.gap crossPlain`
  of their rows on the first 129 lanes and zero on the other 127.
-/
import proofs.«159838_j9131100471358_2_alg».proof.Proof.Lags

noncomputable section

namespace Cert.KernelIdeal.Lags

open Cert.KernelIdeal Cert.KernelIdeal.Gen Idealize.ShloMosaic Idealize.ShloMosaic.ValueIdx Cert.Autocov

/-- Row `p` of a block. -/
def brow (v : FVec Ideal S16x8192 .f32) (p : Fin 16) : Fin 8192 → EReal := fun i => v (ix2 p i)

/-- The window at lag `k` reads row `p` at `k + j`. -/
theorem window_apply (k : Fin 129) (v : FVec Ideal S16x8192 .f32) (p : Fin 16) (j : Fin 8064) :
    extractStridedSlice S16x8064 ![0, k.val] v (slices_lag k) (ix2 p j) = brow v p (shift k j) :=
  slice2_axis1_apply k.val v (slices_lag k) p j (shift k j) rfl

/-- The lag-0 window as printed (its own slice fact) reads row `p` at `0 + j`. -/
theorem window0_apply (v : FVec Ideal S16x8192 .f32) (p : Fin 16) (j : Fin 8064) :
    extractStridedSlice S16x8064 ![0, 0] v slices_S16x8192_o0_0_S16x8064 (ix2 p j) = brow v p (shift 0 j) :=
  slice2_axis1_apply 0 v slices_S16x8192_o0_0_S16x8064 p j (shift 0 j) rfl

/-- A lane sum kept as a column and divided by the printed 8064.0: at row `p`, the row's sum over `len`. -/
theorem colsum_apply (V : FVec Ideal S16x8064 .f32) (p : Fin 16) :
    divf (shapeCast S16x1 (multiReduction .add [1] S16 V 0x00000000#32 reduces_S16x8064_S16 (.inl rfl) rfl) shapeCasts_S16_S16x1)
      (broadcast S16x1 (Scalar.ofBits .f32 0x45FC0000#32)) (ix2 p (0 : Fin 1))
    = Ideal.div (∑ j : Fin 8064, V (ix2 p j)) len :=
  congrArg (fun s => Ideal.div s len)
    (LibLaneReduce.sumLanes_apply V reduces_S16x8064_S16 (.inl rfl) rfl shapeCasts_S16_S16x1 p)

/-- The centred window at `(p, j)` is the row's centred lag-0 entry. -/
theorem cen_apply (v : FVec Ideal S16x8192 .f32) (p : Fin 16) (j : Fin 8064) :
    cen v (ix2 p j) = centred (brow v p) j := by
  unfold cen centred mean
  rw [subf_apply, window0_apply, broadcastTo_a1_ab_apply, colsum_apply]
  simp only [window0_apply]

/-- Column `k` at row `p`: the sum over the window of `w` times the row at `k + j`, over `len`. -/
theorem col_apply (k : Fin 129) (v : FVec Ideal S16x8192 .f32) (w : FVec Ideal S16x8064 .f32) (p : Fin 16) :
    col k v w (ix2 p (0 : Fin 1)) = Ideal.div (∑ j : Fin 8064, w (ix2 p j) * brow v p (shift k j)) len := by
  unfold col
  refine (colsum_apply _ p).trans ?_
  refine congrArg (fun s => Ideal.div s len) (Finset.sum_congr rfl fun j _ => ?_)
  rw [mulf_apply, window_apply]

/-- The 129 columns side by side, at `(p, k)`: the row's plain cross term at lag `k`. -/
theorem cols_apply (v : FVec Ideal S16x8192 .f32) (p : Fin 16) (k : Fin 129) :
    cols v (ix2 p k) = crossPlain (brow v p) k := by
  unfold cols
  refine (concatenate_ofFn_unit_apply (t := S16x129) (s₁ := S16x1) (1 : Fin 2) (fun k : Fin 129 => col k v (cen v))
    (cat129 _) rfl rfl (ix2 p k) k rfl (ix2 p (0 : Fin 1)) ?_).trans ?_
  · intro b hb
    match b with
    | ⟨0, _⟩ => rfl
    | ⟨1, _⟩ => exact absurd rfl hb
  · refine (col_apply k v (cen v) p).trans ?_
    unfold crossPlain
    exact congrArg (fun s => Ideal.div s len) (Finset.sum_congr rfl fun j _ => by rw [cen_apply])

/-- The profile at `(p, k)`: the row's plain cross terms over the lag-0 one. -/
theorem prof_apply (v : FVec Ideal S16x8192 .f32) (p : Fin 16) (k : Fin 129) :
    prof v (ix2 p k) = over0 (crossPlain (brow v p)) k := by
  unfold prof over0
  rw [divf_apply, cols_apply, broadcastTo_a1_ab_apply,
    slice2_axis1_apply 0 (cols v) slices_S16x129_o0_0_S16x1 p (0 : Fin 1) (0 : Fin 129) rfl, cols_apply]

/-- The padding, on the first 129 lanes: the absolute value of the operand there. -/
theorem pad_apply_lt (d : FVec Ideal S16x129 .f32) (p : Fin 16) (q : Fin 256) (h : q.val < 129) :
    k0_pay1 d (ix2 p q) = max (d (ix2 p ⟨q.val, h⟩)) (-(d (ix2 p ⟨q.val, h⟩))) := by
  unfold k0_pay1
  refine (concatenate_pair_apply_left (t := S16x256) (s₁ := S16x129) (s₂ := S16x127) (1 : Fin 2) _ _
    concatenates_S16x129_S16x127_S16x256_d1 (ix2 p q) rfl (ix2 p ⟨q.val, h⟩) ?_).trans ?_
  · intro b
    match b with
    | ⟨0, _⟩ => rfl
    | ⟨1, _⟩ => rfl
  · rfl

/-- The padding, on the last 127 lanes: zero. -/
theorem pad_apply_ge (d : FVec Ideal S16x129 .f32) (p : Fin 16) (q : Fin 256) (h : 129 ≤ q.val) :
    k0_pay1 d (ix2 p q) = 0 := by
  unfold k0_pay1
  refine (concatenate_pair_apply_right (t := S16x256) (s₁ := S16x129) (s₂ := S16x127) (1 : Fin 2) _ _
    concatenates_S16x129_S16x127_S16x256_d1 (ix2 p q) rfl rfl (ix2 p ⟨q.val - 129, by have := q.isLt; omega⟩) ?_ ?_).trans ?_
  · intro b hb
    match b with
    | ⟨0, _⟩ => rfl
    | ⟨1, _⟩ => exact absurd rfl hb
  · show (q.val - 129) + 129 = q.val
    omega
  · exact Ideal.ofBits_zero_f32

/-- What the body leaves in the output block, at `(p, q)`: on the first 129 lanes the gap between row `p` of the two
    input blocks at lag `q`, on the other lanes zero. -/
theorem out_apply (x0 x1 : Vec Ideal S16x8192 .f32) (p : Fin 16) (q : Fin 256) :
    out0_2 x0 x1 (ix2 p q)
      = if h : q.val < 129 then gap crossPlain (brow x0 p) (brow x1 p) ⟨q.val, h⟩ else 0 := by
  have hz : (![0, 0] : Fin S16x256.rank → Nat) = fun _ => 0 := by funext a; fin_cases a <;> rfl
  have hz' : (![0, 0] : Fin S16x8192.rank → Nat) = fun _ => 0 := by funext a; fin_cases a <;> rfl
  rw [out_eq, View.canon_unit_zero hz]
  have e0 : k0_pay2 (View.ld x0 r0_0) = x0 := by
    unfold k0_pay2; dsimp only; rw [shapeCast_self, View.ld_unit_zero (S := S16x8192) hz']
  have e1 : k0_pay3 (View.ld x1 r0_0) = x1 := by
    unfold k0_pay3; dsimp only; rw [shapeCast_self, View.ld_unit_zero (S := S16x8192) hz']
  rw [e0, e1]
  by_cases h : q.val < 129
  · rw [dif_pos h, pad_apply_lt _ p q h, subf_apply, prof_apply, prof_apply]
    rfl
  · rw [dif_neg h, pad_apply_ge _ p q (Nat.not_lt.mp h)]

end Cert.KernelIdeal.Lags

end
-- ==== Proof.KernelValue.lean ====
/-
  The kernel's run read as one value.

  The region's two input windows are the two arguments reshaped to [32, 8192]; point `t` of the grid (t = 0, 1) sees rows
  16t … 16t + 15 of each and writes rows 16t … 16t + 15 of the [32, 256] output. By the block's reading, what it
  writes at (p, q) is the gap between rows 16t + p of the two arrays at lag q on the first 129 lanes and zero on the
  other 127; the two blocks tile the output, so the whole output is that function of the two arrays (`padded`). The
  host lines after the region keep the first 129 lanes, add all 32 · 129 entries from zero and divide by the printed
  4128.0.
-/
import proofs.«159838_j9131100471358_2_alg».proof.Proof.LagsRead
import Idealize.ShloMosaic.Lib.Pipeline.Value
import Idealize.ShloMosaic.Lib.Pipeline.FrameSuffix
import Idealize.ShloMosaic.Lib.StableHlo.Run
import Idealize.ShloMosaic.Lib.Tactic
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Lags Cert.Autocov Idealize.ShloMosaic.ValueIdx

variable (m : (ℓ : Loc nD τ sig) → Buf (Elt Ideal) ℓ) (ρ : Dev nD → PrngReg)

/-- The gaps between the rows of two [32, 8192] arrays on lanes 0 … 128 of a [32, 256] array, zero on the rest. -/
def padded (X Y : (⟨2, ![32, 8192]⟩ : Shape).Idx → EReal) : S32x256.Idx → EReal :=
  fun i => if h : (i 1).val < 129 then gap crossPlain (rowOf X (i 0)) (rowOf Y (i 0)) ⟨(i 1).val, h⟩ else 0

/-- The first 129 lanes of `padded` are the array of gaps. -/
theorem slice_padded (X Y : (⟨2, ![32, 8192]⟩ : Shape).Idx → EReal) :
    extractStridedSlice S32x129 ![0, 0] (padded X Y) slices_S32x256_S32x129_0_0 = gaps crossPlain X Y := by
  funext i
  obtain ⟨r, k, rfl⟩ : ∃ (r : Fin 32) (k : Fin 129), i = ix2 r k := ⟨i 0, i 1, eq_ix2 i⟩
  have hk := k.isLt
  rw [slice2_axis1_apply 0 (padded X Y) slices_S32x256_S32x129_0_0 r k ⟨k.val, by omega⟩ (Nat.zero_add _).symm]
  unfold padded gaps
  exact dif_pos hk

/-- The first argument reshaped, as the region finds it. -/
theorem V_v0 (c : Dev nD) : (V m c main_v0 : S32x8192.Idx → EReal)
    = shapeCast S32x8192 (m ((c : Thread nD τ).loc main_arg0)) shapeCasts_S32x1x8192_S32x8192 := by
  show StableHlo.after hostOps0 (fun b => m (c, b)) (Proc.devRef .tc main_v0) = _
  after_results
  rfl

/-- The second argument reshaped, as the region finds it. -/
theorem V_v1 (c : Dev nD) : (V m c main_v1 : S32x8192.Idx → EReal)
    = shapeCast S32x8192 (m ((c : Thread nD τ).loc main_arg1)) shapeCasts_S32x1x8192_S32x8192 := by
  show StableHlo.after hostOps0 (fun b => m (c, b)) (Proc.devRef .tc main_v1) = _
  after_results
  rfl

/-- The printed index maps over the grid: every window's block at point `t` is row block `t`, lane block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `16 t + p` of the arrays: row `p` of point `t`'s blocks. -/
def rowAt (t : Fin cfg0.N) (p : Fin 16) : Fin 32 :=
  ⟨16 * t.val + p.val, by have := t.isLt; have h2 : cfg0.N = 2 := N_0; have := p.isLt; omega⟩

/-- Row `p` of the first input block at point `t` is row `16 t + p` of the first array. -/
theorem brow_iblk0 (c : Dev nD) (t : Fin cfg0.N) (p : Fin 16) :
    brow (iblk m c 0 t) p = rowOf (V m c main_v0) (rowAt t p) := by
  obtain ⟨e0, e1, -, -, -, -⟩ := idx_facts t
  funext i
  unfold brow rowOf iblk
  rw [View.read_apply]
  show V m c main_v0 _ = V m c main_v0 _
  congr 1
  funext a
  apply Fin.ext
  match a with
  | ⟨0, _⟩ => show win0_0.index t (0 : Fin 2) * 16 + 1 * p.val = 16 * t.val + p.val; rw [e0]; omega
  | ⟨1, _⟩ => show win0_0.index t (1 : Fin 2) * 8192 + 1 * i.val = i.val; rw [e1]; omega

/-- Row `p` of the second input block at point `t` is row `16 t + p` of the second array. -/
theorem brow_iblk1 (c : Dev nD) (t : Fin cfg0.N) (p : Fin 16) :
    brow (iblk m c 1 t) p = rowOf (V m c main_v1) (rowAt t p) := by
  obtain ⟨-, -, e0, e1, -, -⟩ := idx_facts t
  funext i
  unfold brow rowOf iblk
  rw [View.read_apply]
  show V m c main_v1 _ = V m c main_v1 _
  congr 1
  funext a
  apply Fin.ext
  match a with
  | ⟨0, _⟩ => show win0_1.index t (0 : Fin 2) * 16 + 1 * p.val = 16 * t.val + p.val; rw [e0]; omega
  | ⟨1, _⟩ => show win0_1.index t (1 : Fin 2) * 8192 + 1 * i.val = i.val; rw [e1]; omega

/-- What point `t` writes back is block `t` of `padded` of the two arrays. -/
theorem flushed_eq (c : Dev nD) (t : Fin cfg0.N) :
    (dats m 0 c).flushed 2 t = ((cfg0.win 2).blk t).view.read (Elt Ideal) (padded (V m c main_v0) (V m c main_v1)) := by
  obtain ⟨-, -, -, -, e0, e1⟩ := idx_facts t
  show (cfg0.win 2).cut (grid0.coords t) ((dats m 0 c).after 2 t) = _
  rw [after0_2]
  funext y
  obtain ⟨p, q, rfl⟩ : ∃ (p : Fin 16) (q : Fin 256), y = ix2 p q := ⟨y 0, y 1, eq_ix2 y⟩
  show out0_2 (iblk m c 0 t) (iblk m c 1 t) (ix2 p q) = _
  refine (out_apply (iblk m c 0 t) (iblk m c 1 t) p q).trans ?_
  rw [View.read_apply, brow_iblk0, brow_iblk1]
  have he : ((cfg0.win 2).blk t).view.emb (ix2 p q) = ix2 (rowAt t p) q := by
    funext a
    apply Fin.ext
    match a with
    | ⟨0, _⟩ => show win0_2.index t (0 : Fin 2) * 16 + 1 * p.val = 16 * t.val + p.val; rw [e0]; omega
    | ⟨1, _⟩ => show win0_2.index t (1 : Fin 2) * 256 + 1 * q.val = q.val; rw [e1]; omega
  rw [he]
  rfl

/-- The two blocks tile the output, so after the run it is `padded` of the two arrays. -/
theorem final2 (c : Dev nD) : (dats m 0 c).arrAt 2 cfg0.N = padded (V m c main_v0) (V m c main_v1) :=
  (dats m 0 c).arrAt_eq_of_cover 2 (padded (V m c main_v0) (V m c main_v1)) (fun t _ => flushed_eq m c t) fun i => by
    have h0 : (i 0 : Nat) < 32 := (i 0).isLt
    have h1 : (i 1 : Nat) < 256 := (i 1).isLt
    have hN : cfg0.N = 2 := N_0
    have ht : (i 0 : Nat) / 16 < cfg0.N := by omega
    obtain ⟨t, htv⟩ : ∃ t : Fin cfg0.N, t.val = (i 0 : Nat) / 16 := ⟨⟨_, ht⟩, rfl⟩
    obtain ⟨-, -, -, -, e0, e1⟩ := idx_facts t
    refine ⟨t, flush0_2 t, ?_⟩
    show i ∈ ((View.whole main_v2).slice (win0_2.rect t)).set
    rw [View.set_slice_whole, Rect.mem_set_unit]
    intro a
    match a with
    | ⟨0, _⟩ =>
      show win0_2.index t (0 : Fin 2) * 16 ≤ (i 0 : Nat) ∧ (i 0 : Nat) < win0_2.index t (0 : Fin 2) * 16 + 16
      rw [e0]; omega
    | ⟨1, _⟩ =>
      show win0_2.index t (1 : Fin 2) * 256 ≤ (i 1 : Nat) ∧ (i 1 : Nat) < win0_2.index t (1 : Fin 2) * 256 + 256
      rw [e1]; omega

/-- The host lines after the region, applied to an output array `A`: the first 129 lanes summed from zero over 4128.0. -/
def tail (A : S32x256.Idx → EReal) : S_.Idx → EReal :=
  Host.divf (F := Ideal)
    (Host.reduceAdd (F := Ideal) (extractStridedSlice S32x129 ![0, 0] A slices_S32x256_S32x129_0_0)
      (constant (F := Ideal) S_ .f32 0x00000000#32) reducesTo_S32x129_S_d0_1 h_S_)
    (constant (F := Ideal) S_ .f32 0x45810000#32)

/-- The program's result after the host tail. -/
theorem tail_v5 (c : Dev nD) :
    (Pipeline.afterTail₀ cfgs (dats m) 0 (V0 m) [hostOps1] c main_v5 : S_.Idx → EReal)
      = tail (padded (V m c main_v0) (V m c main_v1)) := by
  unfold Pipeline.afterTail₀
  show StableHlo.after hostOps1 _ (Proc.devRef .tc main_v5) = _
  after_results
  show tail (Pipeline.withArrays (cfgs 0).spec c (V0 m c) (fun w => (dats m 0 c).arrAt w (cfgs 0).N) (Proc.devRef .tc main_v2)) = _
  exact congrArg tail ((Pipeline.withArrays_arr spec0 launch0.win.arr_inj c _ _ 2).trans (final2 m c))

/-- The frame run re-posted: the result at the host tail of `padded` of the two reshaped arguments, the arguments
    unchanged. -/
theorem run : θ_run defs (onTc (τ := τ) (main (F := Ideal))) ⟨m, fun _ => 0, ρ⟩ fun r => ∀ c : Dev nD,
      r.2.mem ((c.tc : Thread nD τ).loc main_v5) = tail (padded (V m c main_v0) (V m c main_v1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.LibGatherLanes.lean ====
/-
  `stablehlo.gather` of whole columns of a rank-2 operand at a rank-3 array of start indices, read at an index.

  For an operand `x : [R, N]` and integer start indices `idx : [K, J, 1]`, the gather with offset_dims `[0]`,
  collapsed_slice_dims `[1]`, start_index_map `[1]`, index_vector_dim 2 and slice sizes `[R, 1]` has the result
  `[R, K, J]` whose element `(r, k, j)` is `x` at row `r` and at the column `idx[k, j, 0]`, read as a signed integer
  and clamped into `[0, N − 1]`: the slice is a whole column, so the row coordinate is the result's offset
  coordinate and the column is the clamped start index. This is what `x[:, idx]` lowers to.
-/
import Idealize.ShloMosaic.Lib.ValueIdx

noncomputable section

namespace Cert.LibGatherLanes

open Idealize.ShloMosaic Idealize.ShloMosaic.ValueIdx

variable {α : Type}

/-- Those dimension numbers for an operand `[R, N]`, start indices `[K, J, 1]` and result `[R, K, J]`; their
    conditions `wf` are decided on a program's literal shapes. -/
abbrev laneDims (R N K J : Nat)
    (wf : GatherDims.WF ⟨2, ![R, N]⟩ ⟨3, ![K, J, 1]⟩ ⟨3, ![R, K, J]⟩ [0] [1] [] [1] [] 2 ![R, 1]) :
    GatherDims ⟨2, ![R, N]⟩ ⟨3, ![K, J, 1]⟩ ⟨3, ![R, K, J]⟩ where
  offsetDims := [0]
  collapsedSliceDims := [1]
  operandBatchingDims := []
  startIndicesBatchingDims := []
  startIndexMap := [1]
  indexVectorDim := 2
  sliceSizes := ![R, 1]
  wf := wf

/-- THE GATHER READ AT `(r, k, j)`: the operand at row `r` and at the column `idx[k, j, 0]`, read signed and
    clamped into `[0, N − 1]`. -/
theorem gather_lanes_apply {R N K J w : Nat} (hN : 0 < N)
    (wf : GatherDims.WF ⟨2, ![R, N]⟩ ⟨3, ![K, J, 1]⟩ ⟨3, ![R, K, J]⟩ [0] [1] [] [1] [] 2 ![R, 1])
    (x : (⟨2, ![R, N]⟩ : Shape).Idx → α) (idx : IVec ⟨3, ![K, J, 1]⟩ w) (r : Fin R) (k : Fin K) (j : Fin J) :
    Host.gather (laneDims R N K J wf) x idx (ix3 r k j)
      = x (ix2 r ⟨min (idx (ix3 k j (0 : Fin 1))).toInt.toNat (N - 1), by omega⟩) := by
  unfold Host.gather
  congr 1
  funext a
  refine Fin.ext ?_
  match a with
  | ⟨0, _⟩ =>
    show (laneDims R N K J wf).start (ix3 r k j) idx 0 + (laneDims R N K J wf).batchCoord (ix3 r k j) 0
      + (laneDims R N K J wf).offCoord (ix3 r k j) 0 = r.val
    rw [GatherDims.batchCoord_eq_zero _ _ _ List.not_mem_nil]
    unfold GatherDims.start
    rw [dif_neg (show ¬ (0 : Fin 2) ∈ ([1] : List (Fin 2)) by decide)]
    unfold GatherDims.offCoord
    rw [dif_pos (((laneDims R N K J wf).mem_sKept 0).mpr ⟨(show ¬ (0 : Fin 2) ∈ ([1] : List (Fin 2)) by decide), List.not_mem_nil⟩)]
    simp only [Nat.zero_add]
    rfl
  | ⟨1, _⟩ =>
    show (laneDims R N K J wf).start (ix3 r k j) idx 1 + (laneDims R N K J wf).batchCoord (ix3 r k j) 1
      + (laneDims R N K J wf).offCoord (ix3 r k j) 1 = min (idx (ix3 k j (0 : Fin 1))).toInt.toNat (N - 1)
    rw [GatherDims.batchCoord_eq_zero _ _ _ List.not_mem_nil,
      GatherDims.offCoord_eq_zero _ _ _ (fun h => (((laneDims R N K J wf).mem_sKept _).mp h).1 (List.mem_singleton.mpr rfl))]
    simp only [Nat.add_zero]
    unfold GatherDims.start
    rw [dif_pos (show (1 : Fin 2) ∈ (laneDims R N K J wf).startIndexMap from List.mem_singleton.mpr rfl)]
    have hsi : (laneDims R N K J wf).siIdx (ix3 r k j) ⟨List.idxOf (1 : Fin 2) (laneDims R N K J wf).startIndexMap,
        List.idxOf_lt_length_iff.2 (List.mem_singleton.mpr rfl)⟩ = ix3 k j (0 : Fin 1) := by
      funext b; refine Fin.ext ?_
      match b with
      | ⟨0, _⟩ => rfl
      | ⟨1, _⟩ => rfl
      | ⟨2, _⟩ => rfl
    rw [hsi]
    rfl

end Cert.LibGatherLanes

end
-- ==== Proof.RefGaps.lean ====
/-
  The reference program's [32, 129] array of absolute gaps is `Autocov.gaps crossCentred` of its two reshaped
  arguments.

  Per argument the program builds the integer array `k + j` (two iotas through broadcasts), guards it against
  negative values by a select that never fires (`0 ≤ k + j ≤ 8191`), and gathers with it: element `(r, k, j)` of the
  gathered array is the row's entry at position `k + j`, that is `rowOf X r (shift k j)`. The lag-`k` window's sum over
  8064.0 is `mean`; the lag-0 window (a slice) minus its mean is `centred`; the product's sum over 8064.0 is
  `crossCentred`; divided by the lag-0 column it is `over0`. The two arguments' profiles are subtracted and the
  absolute value taken: `gap`. Each stage is read at explicit coordinates from the generated per-operation
  equations; the two gathers are read by the column-gather lemma of LibGatherLanes.
-/
import proofs.«159838_j9131100471358_2_alg».proof.Proof.Gen.ReferenceIdeal.Read
import proofs.«159838_j9131100471358_2_alg».proof.Proof.Autocov
import proofs.«159838_j9131100471358_2_alg».proof.Proof.LibGatherLanes

noncomputable section

namespace Cert.RefGaps

open Cert.ReferenceIdeal Cert.ReferenceIdeal.Gen Cert.ReferenceIdeal.Read Cert.Autocov Idealize.ShloMosaic Idealize.ShloMosaic.ValueIdx

/-! ## The integer side: the gather's start indices are `k + j` -/

/-- A 32-bit word that encodes a natural number below 2^31 is not negative as a signed integer. -/
theorem slt_zero_ofNat (n : Nat) (h : n < 2 ^ 31) : IntOp.cmpi .slt (BitVec.ofNat 32 n) 0#32 = 0#1 := by
  unfold IntOp.cmpi
  show BitVec.ofBool ((BitVec.ofNat 32 n).slt 0#32) = 0#1
  rw [BitVec.slt_zero_eq_msb, BitVec.msb_eq_decide, BitVec.toNat_ofNat]
  have : n % 2 ^ 32 = n := Nat.mod_eq_of_lt (by omega)
  rw [this]
  have : decide (2 ^ (32 - 1) ≤ n) = false := by simp; omega
  rw [this]; rfl

/-- Read as a signed integer, that word is the number. -/
theorem toInt_toNat_ofNat (n : Nat) (h : n < 2 ^ 31) : (BitVec.ofNat 32 n).toInt.toNat = n := by
  rw [BitVec.toInt_eq_toNat_of_lt (by rw [BitVec.toNat_ofNat, Nat.mod_eq_of_lt (by omega)]; omega), BitVec.toNat_ofNat,
    Nat.mod_eq_of_lt (by omega)]
  rfl

/-- The sum of the two broadcast iotas at `(k, j)` is the word of `k + j`. -/
theorem v8_at (k : Fin 129) (j : Fin 8064) : val_main_v8 (F := Ideal) (ix2 k j) = BitVec.ofNat 32 (k.val + j.val) := by
  rw [val_main_v8_apply, val_main_v6_apply, val_main_v7_apply, val_main_v3_apply, val_main_v5_apply, val_main_v2_apply,
    val_main_v4_apply]
  show IntOp.addi (BitVec.ofNat 32 k.val) (BitVec.ofNat 32 j.val) = _
  unfold IntOp.addi
  rw [← BitVec.ofNat_add]

/-- The guard against a negative index never fires: the start index at `(k, j, 0)` is still the word of `k + j`. -/
theorem v21_at (k : Fin 129) (j : Fin 8064) :
    val_main_v21 (F := Ideal) (ix3 k j (0 : Fin 1)) = BitVec.ofNat 32 (k.val + j.val) := by
  rw [val_main_v21_apply, val_main_v20_apply, val_main_v17_apply, val_main_v16_apply, val_main_c_apply]
  have h8 : val_main_v8 (F := Ideal) (idx_main_v21 (ix3 k j (0 : Fin 1))) = BitVec.ofNat 32 (k.val + j.val) := v8_at k j
  rw [h8, slt_zero_ofNat _ (by have := k.isLt; have := j.isLt; omega), select_zero]

/-! ## The layout operations' index maps at explicit coordinates -/

theorem idx10_at (r : Fin 32) (j : Fin 8064) : idx_main_v10 (ix1 r) j = ix2 r j := by
  funext b; match b with | ⟨0, _⟩ => rfl | ⟨1, _⟩ => rfl
theorem idx11_at (r : Fin 32) : idx_main_v11 (ix2 r (0 : Fin 1)) = ix1 r := by
  funext b; match b with | ⟨0, _⟩ => rfl
theorem idx14_at (r : Fin 32) (j : Fin 8064) : idx_main_v14 (ix2 r j) = ix2 r (0 : Fin 1) := by
  funext b; match b with | ⟨0, _⟩ => rfl | ⟨1, _⟩ => rfl
theorem idx23_at (r : Fin 32) (k : Fin 129) (j : Fin 8064) : idx_main_v23 (ix2 r k) j = ix3 r k j := by
  funext b; match b with | ⟨0, _⟩ => rfl | ⟨1, _⟩ => rfl | ⟨2, _⟩ => rfl
theorem idx24_at (r : Fin 32) (k : Fin 129) : idx_main_v24 (ix3 r k (0 : Fin 1)) = ix2 r k := by
  funext b; match b with | ⟨0, _⟩ => rfl | ⟨1, _⟩ => rfl
theorem idx27_at (r : Fin 32) (k : Fin 129) (j : Fin 8064) : idx_main_v27 (ix3 r k j) = ix3 r k (0 : Fin 1) := by
  funext b; match b with | ⟨0, _⟩ => rfl | ⟨1, _⟩ => rfl | ⟨2, _⟩ => rfl
theorem idx30_at (r : Fin 32) (k : Fin 129) (j : Fin 8064) : idx_main_v29 (idx_main_v30 (ix3 r k j)) = ix2 r j := by
  funext b; match b with | ⟨0, _⟩ => rfl | ⟨1, _⟩ => rfl
theorem idx32_at (r : Fin 32) (k : Fin 129) (j : Fin 8064) : idx_main_v32 (ix2 r k) j = ix3 r k j := by
  funext b; match b with | ⟨0, _⟩ => rfl | ⟨1, _⟩ => rfl | ⟨2, _⟩ => rfl
theorem idx36_at (r : Fin 32) (k : Fin 129) : idx_main_v35 (idx_main_v36 (ix2 r k)) = ix2 r (0 : Fin 129) := by
  funext b; match b with | ⟨0, _⟩ => rfl | ⟨1, _⟩ => rfl

/-! ## The float side, one stage at a time, at explicit coordinates -/

section Chain
variable (a : (⟨S32x1x8192, .f32⟩ : BufTy).Contents (Elt Ideal))

/-- The gathered array at `(r, k, j)` is row `r` at position `k + j`. -/
theorem v22_at (r : Fin 32) (k : Fin 129) (j : Fin 8064) :
    val_main_v22 (F := Ideal) a (ix3 r k j) = rowOf (val_main_v0 (F := Ideal) a) r (shift k j) := by
  unfold val_main_v22 rowOf
  generalize val_main_v0 (F := Ideal) a = X
  have hidx : (val_main_v21 (F := Ideal) (ix3 k j (0 : Fin 1))).toInt.toNat = k.val + j.val := by
    rw [v21_at, toInt_toNat_ofNat _ (by have := k.isLt; have := j.isLt; omega)]
  refine (Cert.LibGatherLanes.gather_lanes_apply (by decide) gather_S32x8192_S129x8064x1_S32x129x8064_0_1_n_n_1_2_321_wf
    X (val_main_v21 (F := Ideal)) r k j).trans ?_
  refine congrArg X ?_
  funext b
  match b with
  | ⟨0, _⟩ => rfl
  | ⟨1, _⟩ =>
    refine Fin.ext ?_
    show min (val_main_v21 (F := Ideal) (ix3 k j (0 : Fin 1))).toInt.toNat (8192 - 1) = k.val + j.val
    rw [hidx]
    have := k.isLt; have := j.isLt; omega

/-- The lag-0 slice at `(r, j)` is row `r` at position `0 + j`. -/
theorem v9_at (r : Fin 32) (j : Fin 8064) :
    val_main_v9 (F := Ideal) a (ix2 r j) = rowOf (val_main_v0 (F := Ideal) a) r (shift 0 j) := by
  rw [val_main_v9_apply]
  unfold rowOf
  refine congrArg (val_main_v0 (F := Ideal) a) ?_
  funext b
  match b with
  | ⟨0, _⟩ => rfl
  | ⟨1, _⟩ =>
    refine Fin.ext ?_
    show j.val = (0 : Fin 129).val + j.val
    simp

/-- The lag-0 window's sum. -/
theorem v10_at (r : Fin 32) :
    val_main_v10 (F := Ideal) a (ix1 r) = ∑ j : Fin 8064, rowOf (val_main_v0 (F := Ideal) a) r (shift 0 j) := by
  rw [val_main_v10_apply, val_main_cst_apply, Ideal.ofBits_def, Ideal.ofBits_zero_f32, zero_add]
  exact Finset.sum_congr rfl fun j _ => by rw [idx10_at]; exact v9_at a r j

/-- The lag-0 window's mean. -/
theorem v13_at (r : Fin 32) :
    val_main_v13 (F := Ideal) a (ix2 r (0 : Fin 1)) = mean (rowOf (val_main_v0 (F := Ideal) a) r) 0 := by
  rw [val_main_v13_apply, val_main_v11_apply, val_main_v12_apply, val_main_cst_0_apply, Ideal.hostDivf_def, Ideal.ofBits_def,
    idx11_at]
  unfold mean
  exact congrArg (Ideal.div · len) (v10_at a r)

/-- The lag-0 window with its mean taken off. -/
theorem v15_at (r : Fin 32) (j : Fin 8064) :
    val_main_v15 (F := Ideal) a (ix2 r j) = centred (rowOf (val_main_v0 (F := Ideal) a) r) j := by
  rw [val_main_v15_apply, val_main_v14_apply, Ideal.subf_def, idx14_at]
  unfold centred
  exact congrArg₂ (· - ·) (v9_at a r j) (v13_at a r)

/-- The lag-`k` window's sum. -/
theorem v23_at (r : Fin 32) (k : Fin 129) :
    val_main_v23 (F := Ideal) a (ix2 r k) = ∑ j : Fin 8064, rowOf (val_main_v0 (F := Ideal) a) r (shift k j) := by
  rw [val_main_v23_apply, val_main_cst_2_apply, Ideal.ofBits_def, Ideal.ofBits_zero_f32, zero_add]
  exact Finset.sum_congr rfl fun j _ => by rw [idx23_at]; exact v22_at a r k j

/-- The lag-`k` window's mean. -/
theorem v26_at (r : Fin 32) (k : Fin 129) :
    val_main_v26 (F := Ideal) a (ix3 r k (0 : Fin 1)) = mean (rowOf (val_main_v0 (F := Ideal) a) r) k := by
  rw [val_main_v26_apply, val_main_v24_apply, val_main_v25_apply, val_main_cst_3_apply, Ideal.hostDivf_def, Ideal.ofBits_def,
    idx24_at]
  unfold mean
  exact congrArg (Ideal.div · len) (v23_at a r k)

/-- The lag-`k` window with its mean taken off. -/
theorem v28_at (r : Fin 32) (k : Fin 129) (j : Fin 8064) :
    val_main_v28 (F := Ideal) a (ix3 r k j)
      = rowOf (val_main_v0 (F := Ideal) a) r (shift k j) - mean (rowOf (val_main_v0 (F := Ideal) a) r) k := by
  rw [val_main_v28_apply, val_main_v27_apply, Ideal.subf_def, idx27_at]
  exact congrArg₂ (· - ·) (v22_at a r k j) (v26_at a r k)

/-- The product of the two centred windows. -/
theorem v31_at (r : Fin 32) (k : Fin 129) (j : Fin 8064) :
    val_main_v31 (F := Ideal) a (ix3 r k j)
      = centred (rowOf (val_main_v0 (F := Ideal) a) r) j
        * (rowOf (val_main_v0 (F := Ideal) a) r (shift k j) - mean (rowOf (val_main_v0 (F := Ideal) a) r) k) := by
  rw [val_main_v31_apply, val_main_v30_apply, val_main_v29_apply, Ideal.mulf_def, idx30_at]
  exact congrArg₂ (· * ·) (v15_at a r j) (v28_at a r k j)

/-- The cross term at lag `k`. -/
theorem v34_at (r : Fin 32) (k : Fin 129) :
    val_main_v34 (F := Ideal) a (ix2 r k) = crossCentred (rowOf (val_main_v0 (F := Ideal) a) r) k := by
  rw [val_main_v34_apply, val_main_v32_apply, val_main_v33_apply, val_main_cst_4_apply, val_main_cst_5_apply,
    Ideal.hostDivf_def, Ideal.ofBits_def, Ideal.ofBits_def, Ideal.ofBits_zero_f32, zero_add]
  unfold crossCentred
  exact congrArg (Ideal.div · len) (Finset.sum_congr rfl fun j _ => by rw [idx32_at]; exact v31_at a r k j)

/-- The profile divided by its lag-0 entry. -/
theorem v37_at (r : Fin 32) (k : Fin 129) :
    val_main_v37 (F := Ideal) a (ix2 r k) = over0 (crossCentred (rowOf (val_main_v0 (F := Ideal) a) r)) k := by
  rw [val_main_v37_apply, val_main_v36_apply, val_main_v35_apply, Ideal.hostDivf_def, idx36_at]
  unfold over0
  exact congrArg₂ Ideal.div (v34_at a r k) (v34_at a r 0)

end Chain

/-- The second argument goes through the same operations under other names. -/
theorem v73_eq (a : (⟨S32x1x8192, .f32⟩ : BufTy).Contents (Elt Ideal)) :
    val_main_v73 (F := Ideal) a = val_main_v37 (F := Ideal) a := rfl

/-- THE REFERENCE'S GAPS: the array of absolute differences the reference sums is `gaps crossCentred` of the two
    reshaped arguments. -/
theorem ref_gaps (a0 a1 : (⟨S32x1x8192, .f32⟩ : BufTy).Contents (Elt Ideal)) :
    val_main_v75 (F := Ideal) a0 a1 = gaps crossCentred (val_main_v0 (F := Ideal) a0) (val_main_v1 (F := Ideal) a1) := by
  funext i
  obtain ⟨r, k, rfl⟩ : ∃ (r : Fin 32) (k : Fin 129), i = ix2 r k := ⟨i 0, i 1, eq_ix2 i⟩
  rw [val_main_v75_apply, val_main_v74_apply, v73_eq, Ideal.hostAbsf_def, Ideal.absf_def, Ideal.subf_def,
    v37_at a0 r k, v37_at a1 r k]
  rfl

end Cert.RefGaps

end
-- ==== Proof.AutocovLaw.lean ====
/-
  The law joining the two arrangements of the lagged cross term, over the reals.

  Let every entry of the row be a real number, `u i = a i`. Write `S = ∑ j, a j` over the lag-0 window and
  `c j = a j - S / 8064` for the centred window. The window has exactly 8064 entries, so
  `∑ j, c j = S - 8064 · (S / 8064) = 0`. Hence for any real window `y` and any real `M`
  `∑ j, c j · (y j - M) = ∑ j, c j · y j - M · ∑ j, c j = ∑ j, c j · y j`:
  taking the lag-`k` window's mean off changes nothing. Distributivity fails at the infinities, which is why
  the entries are assumed real; the divisor being exactly the window's length is what makes the centred sum vanish.
-/
import proofs.«159838_j9131100471358_2_alg».proof.Proof.Autocov

noncomputable section

namespace Cert.Autocov

open Idealize.ShloMosaic

/-- The printed window length denotes the real number 8064 = 1.96875 · 2^12. -/
theorem len_eq : len = ((8064 : ℝ) : EReal) := by
  simp [Ideal.ofBits, Ideal.ieee, -EReal.coe_mul]; norm_num

/-- The coercion of the reals into the extended reals commutes with finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A window `c` of zero sum pairs with `y - M` as it pairs with `y`. -/
theorem sum_mul_sub_of_sum_eq_zero {ι : Type} [Fintype ι] (c y : ι → ℝ) (M : ℝ) (h0 : (∑ j, c j) = 0) :
    (∑ j, c j * (y j - M)) = ∑ j, c j * y j := by
  have e : ∀ j, c j * (y j - M) = c j * y j - c j * M := fun j => by ring
  simp only [e, Finset.sum_sub_distrib, ← Finset.sum_mul, h0, zero_mul, sub_zero]

/-- The law over the reals: a window centred by its own mean (the sum divided by the number `n` of its entries)
    has zero sum, so pairing it with `y - M` or with `y` gives the same sum. -/
theorem real_law {ι : Type} [Fintype ι] (n : ℝ) (hn : n ≠ 0) (hcard : (Fintype.card ι : ℝ) = n)
    (a y : ι → ℝ) (M : ℝ) :
    (∑ j, (a j - (∑ i, a i) * (1 / n)) * (y j - M)) = ∑ j, (a j - (∑ i, a i) * (1 / n)) * y j := by
  refine sum_mul_sub_of_sum_eq_zero (fun j => a j - (∑ i, a i) * (1 / n)) y M ?_
  rw [Finset.sum_sub_distrib, Finset.sum_const, Finset.card_univ, nsmul_eq_mul, hcard]
  field_simp
  ring

/-- The mean of a real window is the real `(∑ a) · (1/8064)`. -/
theorem mean_coe (a : Fin 8192 → ℝ) (k : Fin 129) :
    mean (fun i => ((a i : ℝ) : EReal)) k = (((∑ j : Fin 8064, a (shift k j)) * (1 / 8064) : ℝ) : EReal) := by
  rw [mean, len_eq, Ideal.div_coe (by norm_num), coe_sum, ← EReal.coe_mul]

/-- The centred lag-0 window of a real row is real. -/
theorem centred_coe (a : Fin 8192 → ℝ) (j : Fin 8064) :
    centred (fun i => ((a i : ℝ) : EReal)) j
      = ((a (shift 0 j) - (∑ i : Fin 8064, a (shift 0 i)) * (1 / 8064) : ℝ) : EReal) := by
  rw [centred, mean_coe, ← EReal.coe_sub]

/-- The plain cross term of a real row, as a real. -/
theorem crossPlain_coe (a : Fin 8192 → ℝ) (k : Fin 129) :
    crossPlain (fun i => ((a i : ℝ) : EReal)) k
      = (((∑ j : Fin 8064, (a (shift 0 j) - (∑ i : Fin 8064, a (shift 0 i)) * (1 / 8064)) * a (shift k j))
          * (1 / 8064) : ℝ) : EReal) := by
  rw [crossPlain, len_eq, Ideal.div_coe (by norm_num)]
  simp only [centred_coe, ← EReal.coe_mul]
  rw [coe_sum, ← EReal.coe_mul]

/-- The centred cross term of a real row, as a real. -/
theorem crossCentred_coe (a : Fin 8192 → ℝ) (k : Fin 129) :
    crossCentred (fun i => ((a i : ℝ) : EReal)) k
      = (((∑ j : Fin 8064, (a (shift 0 j) - (∑ i : Fin 8064, a (shift 0 i)) * (1 / 8064))
            * (a (shift k j) - (∑ i : Fin 8064, a (shift k i)) * (1 / 8064)))
          * (1 / 8064) : ℝ) : EReal) := by
  rw [crossCentred, len_eq, Ideal.div_coe (by norm_num)]
  simp only [centred_coe, mean_coe, ← EReal.coe_sub, ← EReal.coe_mul]
  rw [coe_sum, ← EReal.coe_mul]

/-- On a row of reals the two cross terms agree. -/
theorem crossCentred_eq_crossPlain (u : Fin 8192 → EReal) (hu : ∀ i, ∃ r : ℝ, u i = (r : EReal))
    (k : Fin 129) : crossCentred u k = crossPlain u k := by
  choose a ha using hu
  obtain rfl : u = fun i => ((a i : ℝ) : EReal) := funext ha
  rw [crossCentred_coe, crossPlain_coe]
  congr 2
  exact real_law (ι := Fin 8064) 8064 (by norm_num) (by simp) (fun j => a (shift 0 j)) (fun j => a (shift k j)) _

/-- Hence the gaps built from either cross term agree on rows of reals. -/
theorem gap_centred_eq_plain (u v : Fin 8192 → EReal) (hu : ∀ i, ∃ r : ℝ, u i = (r : EReal))
    (hv : ∀ i, ∃ r : ℝ, v i = (r : EReal)) (k : Fin 129) :
    gap crossCentred u v k = gap crossPlain u v k := by
  have eu : crossCentred u = crossPlain u := funext (crossCentred_eq_crossPlain u hu)
  have ev : crossCentred v = crossPlain v := funext (crossCentred_eq_crossPlain v hv)
  simp only [gap, eu, ev]

/-- And so do the arrays of gaps of two [32, 8192] arrays of reals. -/
theorem gaps_centred_eq_plain (X Y : (⟨2, ![32, 8192]⟩ : Shape).Idx → EReal)
    (hX : ∀ i, ∃ r : ℝ, X i = (r : EReal)) (hY : ∀ i, ∃ r : ℝ, Y i = (r : EReal)) :
    gaps crossCentred X Y = gaps crossPlain X Y := by
  funext i
  exact gap_centred_eq_plain _ _ (fun j => hX _) (fun j => hY _) _

end Cert.Autocov

end
-- ==== Proof.FiniteRows.lean ====
/-
  From the precondition to "every entry is a real number".

  The precondition states, for each of the two inputs, that every entry's absolute value lies strictly below
  `+∞`, and takes the conjunction of all these comparisons. On the extended reals the absolute value of `x` is
  `max x (-x)`, which is `⊤` at both infinities; so an entry with `max x (-x) < ⊤` is neither `⊤` nor `⊥`, that is,
  it is (the coercion of) a real. A reshape only re-reads its operand at some index, so it keeps the property.
-/
import proofs.«159838_j9131100471358_2_alg».proof.Pre_finite_inputs
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

namespace Cert.FiniteRows

open Idealize.ShloMosaic

/-- An extended real whose absolute value `max x (-x)` lies below `⊤` is a real: at `⊥` and at `⊤` the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The printed pattern `0x7F800000` (all-ones exponent, zero fraction, sign clear) denotes `+∞`. -/
theorem inf_eq : Ideal.ofBits .f32 0x7F800000#32 = (⊤ : EReal) := by
  simp [Ideal.ofBits, Ideal.ieee]

/-- One comparison of the precondition: `|x| < +∞` holding says `x` is a real. -/
theorem real_of_cmp (x : EReal)
    (h : Ideal.cmp .olt (max x (-x)) (Ideal.ofBits .f32 0x7F800000#32) = 1#1) : ∃ r : ℝ, x = (r : EReal) := by
  rw [inf_eq] at h
  unfold Ideal.cmp at h
  refine real_of_abs_lt_top x ?_
  by_contra hn
  simp [hn] at h

/-- A reshape of an array of reals is an array of reals: each entry of the result is an entry of the operand. -/
theorem real_shapeCast {s t : Shape} (a : s.Idx → EReal) (hc : s.ShapeCasts t)
    (ha : ∀ i, ∃ r : ℝ, a i = (r : EReal)) : ∀ i, ∃ r : ℝ, shapeCast t a hc i = (r : EReal) :=
  fun _ => ha _

/-- The rank-0 shape has exactly one index. -/
instance : Subsingleton Cert.Pre_finite_inputs.S_.Idx := ⟨fun a b => funext fun d => d.elim0⟩

/-- The precondition holding says every entry of both inputs is a real: the conjunction gives each input's
    "all" separately, each "all" gives the comparison at every index, and each comparison gives a real. -/
theorem real_of_pre [Cert.Pre_finite_inputs.Facts] (a0 a1 : FVec Ideal Cert.Pre_finite_inputs.S32x1x8192 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  refine ⟨fun i => real_of_cmp (a0 i) ?_, fun i => real_of_cmp (a1 i) ?_⟩
  · exact Host.reduce_andi_all _ _ _ _ _ h1 i
  · exact Host.reduce_andi_all _ _ _ _ _ h2 i

end Cert.FiniteRows

end
-- ==== Proof.lean ====
/-
  The kernel and its reference compute one number.

  Both programs take two [32, 1, 8192] arrays, view them as 32 rows of 8192 entries, and for every row and every lag
  k = 0 … 128 form a cross term between the row's lag-0 window, with its mean taken off, and its window at lag k,
  divide each row's 129 cross terms by the lag-0 one, take the absolute difference of the two arrays' profiles and
  average the 32 · 129 differences. They differ in one step: the reference takes the lag-k window's own mean off
  before multiplying, the kernel does not. Over the reals that changes nothing, because the centred lag-0 window
  sums to zero — the sum is S − 8064 · (S / 8064) — so the extra term M · ∑ c is M · 0 (AutocovLaw.lean). The step
  uses distributivity, which the extended reals lack at the infinities, so the precondition — every input entry
  finite — is used: it makes every entry a real (FiniteRows.lean).

  The kernel's side: each grid point's block payload, printed lag by lag, is one function of the lag (Lags.lean), read
  at an index as the gap of plain cross terms on 129 lanes and zero on the other 127 (LagsRead.lean); the two blocks
  tile the [32, 256] output, and the host lines after the region slice, sum and divide (KernelValue.lean). The
  reference's side: its operations read one at a time, its two gathers at the position k + j (RefGaps.lean,
  LibGatherLanes.lean), give the gap of centred cross terms, then the same sum and division. Nothing was rewritten
  in printing the idealized kernel, so that conjunct is trivial; the frames are the generated ones, the reference's
  its run with the result dropped.
-/
import proofs.«159838_j9131100471358_2_alg».proof.Defs
import proofs.«159838_j9131100471358_2_alg».proof.Proof.Gen.Kernel
import proofs.«159838_j9131100471358_2_alg».proof.Proof.Gen.Kernel.Skeleton
import proofs.«159838_j9131100471358_2_alg».proof.Proof.Gen.Kernel.Launch
import proofs.«159838_j9131100471358_2_alg».proof.Proof.Gen.Kernel.Points
import proofs.«159838_j9131100471358_2_alg».proof.Proof.Gen.Kernel.Frame
import proofs.«159838_j9131100471358_2_alg».proof.Proof.Gen.KernelIdeal
import proofs.«159838_j9131100471358_2_alg».proof.Proof.Gen.KernelIdeal.Skeleton
import proofs.«159838_j9131100471358_2_alg».proof.Proof.Gen.KernelIdeal.Launch
import proofs.«159838_j9131100471358_2_alg».proof.Proof.Gen.KernelIdeal.Points
import proofs.«159838_j9131100471358_2_alg».proof.Proof.Gen.KernelIdeal.Frame
import proofs.«159838_j9131100471358_2_alg».proof.Proof.Gen.ReferenceIdeal
import proofs.«159838_j9131100471358_2_alg».proof.Proof.Gen.Pre_finite_inputs
import proofs.«159838_j9131100471358_2_alg».proof.Proof.Gen.ReferenceIdeal.Run
import proofs.«159838_j9131100471358_2_alg».proof.Proof.Gen.ReferenceIdeal.Read
import proofs.«159838_j9131100471358_2_alg».proof.Proof.KernelValue
import proofs.«159838_j9131100471358_2_alg».proof.Proof.RefGaps
import proofs.«159838_j9131100471358_2_alg».proof.Proof.AutocovLaw
import proofs.«159838_j9131100471358_2_alg».proof.Proof.FiniteRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the host tail of the padded array of plain gaps of the two reshaped arguments: the kernel's by
    its value, the reference's because its centred gaps are the plain ones on arrays of reals. -/
theorem algebraic : Cert.algebraic_KernelIdeal_ReferenceIdeal := by
  intro m ρ m' ρ' hpre hagree
  refine ⟨fun c => Cert.KernelIdeal.Whole.tail (Cert.KernelIdeal.Whole.padded (Cert.KernelIdeal.Gen.V m c Cert.KernelIdeal.main_v0)
    (Cert.KernelIdeal.Gen.V m c Cert.KernelIdeal.main_v1)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.FiniteRows.real_of_pre _ _ (hpre c)
  rw [Cert.ReferenceIdeal.Read.val_main_v77_eq, (hagree c).1, (hagree c).2]
  beta_reduce
  rw [Cert.KernelIdeal.Whole.V_v0, Cert.KernelIdeal.Whole.V_v1]
  unfold Cert.KernelIdeal.Whole.tail
  rw [Cert.KernelIdeal.Whole.slice_padded,
    ← Cert.Autocov.gaps_centred_eq_plain _ _ (Cert.FiniteRows.real_shapeCast _ _ h0) (Cert.FiniteRows.real_shapeCast _ _ h1)]
  unfold Cert.ReferenceIdeal.Read.val_main_v77 Cert.ReferenceIdeal.Read.val_main_v76
  rw [Cert.RefGaps.ref_gaps]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
